-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x8 : Shape := ⟨2, ![16, 8]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x8 : S_.BroadcastsInDim S16x8 (![] : Fin 0 → Fin S16x8.rank)
  reducesTo_S16x8_S_d0_1 : S16x8.ReducesTo [0, 1] S_

variable [Facts]

def fn {F : FTy → Type} [FloatOps F] (main_arg0 : FVec F S16x256x128x128 .f32) (main_arg1 : FVec F S16x8 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x8 .f32 := Host.absf main_arg1
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  main_v8
-- ==== Kernel.lean ====
abbrev S16x256x128x128 : Shape := ⟨4, ![16, 256, 128, 128]⟩
abbrev S16x8 : Shape := ⟨2, ![16, 8]⟩
abbrev S16x1x128x128 : Shape := ⟨4, ![16, 1, 128, 128]⟩
abbrev S1x256x128x128 : Shape := ⟨4, ![1, 256, 128, 128]⟩
abbrev S1x1x128x128 : Shape := ⟨4, ![1, 1, 128, 128]⟩
abbrev S1x128x128 : Shape := ⟨3, ![1, 128, 128]⟩
abbrev S16x2x4 : Shape := ⟨3, ![16, 2, 4]⟩
abbrev S_ : Shape := ⟨0, ![]⟩
abbrev S16x2 : Shape := ⟨2, ![16, 2]⟩
abbrev S16x2x128x128 : Shape := ⟨4, ![16, 2, 128, 128]⟩
abbrev S16x2x130x130 : Shape := ⟨4, ![16, 2, 130, 130]⟩
abbrev S16x2x1 : Shape := ⟨3, ![16, 2, 1]⟩
abbrev S16x2x1x1 : Shape := ⟨4, ![16, 2, 1, 1]⟩
abbrev S16x128x128 : Shape := ⟨3, ![16, 128, 128]⟩
abbrev S1x64x128x128 : Shape := ⟨4, ![1, 64, 128, 128]⟩

abbrev nBuf : Space → Nat
  | .hbm => 47
  | .vmem => 12
  | .smem => 0
  | _ => 0

abbrev bufTy : (tb : Table) → Fin (tcTables nBuf tb) → BufTy
  | .hbm, ⟨0, _⟩ => ⟨S16x256x128x128, .f32⟩
  | .hbm, ⟨1, _⟩ => ⟨S16x8, .f32⟩
  | .hbm, ⟨2, _⟩ => ⟨S16x1x128x128, .f32⟩
  | .hbm, ⟨3, _⟩ => ⟨S16x1x128x128, .f32⟩
  | .hbm, ⟨4, _⟩ => ⟨S16x2x4, .f32⟩
  | .hbm, ⟨5, _⟩ => ⟨S_, .f32⟩
  | .hbm, ⟨6, _⟩ => ⟨S16x2, .f32⟩
  | .hbm, ⟨7, _⟩ => ⟨S16x2, .f32⟩
  | .hbm, ⟨8, _⟩ => ⟨S16x2x128x128, .f32⟩
  | .hbm, ⟨9, _⟩ => ⟨S_, .i32⟩
  | .hbm, ⟨10, _⟩ => ⟨S_, .f32⟩
  | .hbm, ⟨11, _⟩ => ⟨S16x2x130x130, .f32⟩
  | .hbm, ⟨12, _⟩ => ⟨S16x2x128x128, .f32⟩
  | .hbm, ⟨13, _⟩ => ⟨S16x2x128x128, .f32⟩
  | .hbm, ⟨14, _⟩ => ⟨S16x2x128x128, .f32⟩
  | .hbm, ⟨15, _⟩ => ⟨S16x2x128x128, .f32⟩
  | .hbm, ⟨16, _⟩ => ⟨S16x2x1, .f32⟩
  | .hbm, ⟨17, _⟩ => ⟨S16x2, .f32⟩
  | .hbm, ⟨18, _⟩ => ⟨S16x2x1x1, .f32⟩
  | .hbm, ⟨19, _⟩ => ⟨S16x2x128x128, .f32⟩
  | .hbm, ⟨20, _⟩ => ⟨S16x2x128x128, .f32⟩
  | .hbm, ⟨21, _⟩ => ⟨S16x2x1, .f32⟩
  | .hbm, ⟨22, _⟩ => ⟨S16x2, .f32⟩
  | .hbm, ⟨23, _⟩ => ⟨S16x2x1x1, .f32⟩
  | .hbm, ⟨24, _⟩ => ⟨S16x2x128x128, .f32⟩
  | .hbm, ⟨25, _⟩ => ⟨S16x2x128x128, .f32⟩
  | .hbm, ⟨26, _⟩ => ⟨S16x2x128x128, .f32⟩
  | .hbm, ⟨27, _⟩ => ⟨S16x2x1, .f32⟩
  | .hbm, ⟨28, _⟩ => ⟨S16x2, .f32⟩
  | .hbm, ⟨29, _⟩ => ⟨S16x2x1x1, .f32⟩
  | .hbm, ⟨30, _⟩ => ⟨S16x2x128x128, .f32⟩
  | .hbm, ⟨31, _⟩ => ⟨S16x2x128x128, .f32⟩
  | .hbm, ⟨32, _⟩ => ⟨S16x2x128x128, .f32⟩
  | .hbm, ⟨33, _⟩ => ⟨S16x2x1, .f32⟩
  | .hbm, ⟨34, _⟩ => ⟨S16x2, .f32⟩
  | .hbm, ⟨35, _⟩ => ⟨S16x2x1x1, .f32⟩
  | .hbm, ⟨36, _⟩ => ⟨S16x2x128x128, .f32⟩
  | .hbm, ⟨37, _⟩ => ⟨S16x2x128x128, .f32⟩
  | .hbm, ⟨38, _⟩ => ⟨S16x2x128x128, .f32⟩
  | .hbm, ⟨39, _⟩ => ⟨S16x2x1x1, .f32⟩
  | .hbm, ⟨40, _⟩ => ⟨S16x2x128x128, .f32⟩
  | .hbm, ⟨41, _⟩ => ⟨S16x2x128x128, .f32⟩
  | .hbm, ⟨42, _⟩ => ⟨S16x2x128x128, .f32⟩
  | .hbm, ⟨43, _⟩ => ⟨S_, .f32⟩
  | .hbm, ⟨44, _⟩ => ⟨S16x128x128, .f32⟩
  | .hbm, ⟨45, _⟩ => ⟨S16x1x128x128, .f32⟩
  | .hbm, ⟨46, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x64x128x128, .f32⟩
  | .local _ .vmem, ⟨7, _⟩ => ⟨S1x64x128x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x64x128x128, .f32⟩
  | .local _ .vmem, ⟨11, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x128x128 : S1x256x128x128.Reduces [1] S1x128x128
  shapeCasts_S1x128x128_S1x1x128x128 : S1x128x128.ShapeCasts S1x1x128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S16x8_S16x2x4 : S16x8.ShapeCasts S16x2x4
  reducesTo_S16x2x4_S16x2_d2 : S16x2x4.ReducesTo [2] S16x2
  h_S_ : 0 < S_.numel
  concatenates_S16x1x128x128_S16x1x128x128_S16x2x128x128_d1 : Shape.Concatenates [S16x1x128x128, S16x1x128x128] S16x2x128x128 1
  pads_S16x2x128x128_S16x2x130x130_000_000_110_110 : S16x2x128x128.Pads (![0, 0, 1, 1] : Fin 4 → Nat) ![0, 0, 1, 1] ![0, 0, 0, 0] S16x2x130x130
  slices_S16x2x130x130_S16x2x128x128_0_0_0_1 : S16x2x130x130.Slices ![0, 0, 0, 1] S16x2x128x128
  slices_S16x2x130x130_S16x2x128x128_0_0_2_1 : S16x2x130x130.Slices ![0, 0, 2, 1] S16x2x128x128
  slices_S16x2x130x130_S16x2x128x128_0_0_1_0 : S16x2x130x130.Slices ![0, 0, 1, 0] S16x2x128x128
  slices_S16x2x130x130_S16x2x128x128_0_0_1_2 : S16x2x130x130.Slices ![0, 0, 1, 2] S16x2x128x128
  slices_S16x2x4_S16x2x1_0_0_0 : S16x2x4.Slices ![0, 0, 0] S16x2x1
  shapeCasts_S16x2x1_S16x2 : S16x2x1.ShapeCasts S16x2
  bcast_S16x2_S16x2x1x1_0_1 : S16x2.BroadcastsInDim S16x2x1x1 (![0, 1] : Fin 2 → Fin S16x2x1x1.rank)
  bcast_S16x2x1x1_S16x2x128x128_0_1_2_3 : S16x2x1x1.BroadcastsInDim S16x2x128x128 (![0, 1, 2, 3] : Fin 4 → Fin S16x2x128x128.rank)
  slices_S16x2x4_S16x2x1_0_0_1 : S16x2x4.Slices ![0, 0, 1] S16x2x1
  slices_S16x2x4_S16x2x1_0_0_2 : S16x2x4.Slices ![0, 0, 2] S16x2x1
  slices_S16x2x4_S16x2x1_0_0_3 : S16x2x4.Slices ![0, 0, 3] S16x2x1
  reducesTo_S16x2x128x128_S16x128x128_d1 : S16x2x128x128.ReducesTo [1] S16x128x128
  bcast_S16x128x128_S16x1x128x128_0_2_3 : S16x128x128.BroadcastsInDim S16x1x128x128 (![0, 2, 3] : Fin 3 → Fin S16x1x128x128.rank)
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x1x128x128_S1x1x128x128 : S1x1x128x128.ShapeCasts S1x1x128x128
  broadcasts_S1x1x128x128_S1x64x128x128 : S1x1x128x128.Broadcasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x128.size a ≤ S16x1x128x128.size a
  hwx0_1 : ∀ i : grid0.Coords, EltTy.bits .f32 = 32 ∨ (Rect.block (s := S16x1x128x128) S1x1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x128.size a ≤ S16x1x128x128.size a
  hwx0_2 : ∀ i : grid0.Coords, EltTy.bits .f32 = 32 ∨ (Rect.block (s := S16x1x128x128) S1x1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x128.size a ≤ S16x256x128x128.size a
  hwx1_0 : ∀ i : grid1.Coords, EltTy.bits .f32 = 32 ∨ (Rect.block (s := S16x256x128x128) S1x64x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x128.size a ≤ S16x1x128x128.size a
  hwx1_1 : ∀ i : grid1.Coords, EltTy.bits .f32 = 32 ∨ (Rect.block (s := S16x1x128x128) S1x1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S16x256x128x128.size a
  hwx1_2 : ∀ i : grid1.Coords, EltTy.bits .f32 = 32 ∨ (Rect.block (s := S16x256x128x128) S1x64x128x128.size (cc1_transform_2 i) (hinb1_2 i)).WholeWords (EltTy.packing .f32)

variable [Facts₀]

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x8 : Shape := ⟨2, ![16, 8]⟩
abbrev S_ : Shape := ⟨0, ![]⟩
abbrev S16x128x128 : Shape := ⟨3, ![16, 128, 128]⟩
abbrev S16x1x128x128 : Shape := ⟨4, ![16, 1, 128, 128]⟩
abbrev S16x2x128x128 : Shape := ⟨4, ![16, 2, 128, 128]⟩
abbrev S16x2x4 : Shape := ⟨3, ![16, 2, 4]⟩
abbrev S16x2 : Shape := ⟨2, ![16, 2]⟩
abbrev S16x2x130x130 : Shape := ⟨4, ![16, 2, 130, 130]⟩
abbrev S16x2x1 : Shape := ⟨3, ![16, 2, 1]⟩
abbrev S16x2x1x1 : Shape := ⟨4, ![16, 2, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x8, .f32⟩
  | .hbm, ⟨2, _⟩ => ⟨S_, .f32⟩
  | .hbm, ⟨3, _⟩ => ⟨S16x128x128, .f32⟩
  | .hbm, ⟨4, _⟩ => ⟨S_, .f32⟩
  | .hbm, ⟨5, _⟩ => ⟨S16x128x128, .f32⟩
  | .hbm, ⟨6, _⟩ => ⟨S16x128x128, .f32⟩
  | .hbm, ⟨7, _⟩ => ⟨S_, .f32⟩
  | .hbm, ⟨8, _⟩ => ⟨S16x128x128, .f32⟩
  | .hbm, ⟨9, _⟩ => ⟨S16x1x128x128, .f32⟩
  | .hbm, ⟨10, _⟩ => ⟨S16x1x128x128, .f32⟩
  | .hbm, ⟨11, _⟩ => ⟨S16x2x128x128, .f32⟩
  | .hbm, ⟨12, _⟩ => ⟨S16x2x4, .f32⟩
  | .hbm, ⟨13, _⟩ => ⟨S_, .f32⟩
  | .hbm, ⟨14, _⟩ => ⟨S16x2, .f32⟩
  | .hbm, ⟨15, _⟩ => ⟨S16x2, .f32⟩
  | .hbm, ⟨16, _⟩ => ⟨S_, .i32⟩
  | .hbm, ⟨17, _⟩ => ⟨S_, .f32⟩
  | .hbm, ⟨18, _⟩ => ⟨S16x2x130x130, .f32⟩
  | .hbm, ⟨19, _⟩ => ⟨S16x2x128x128, .f32⟩
  | .hbm, ⟨20, _⟩ => ⟨S16x2x128x128, .f32⟩
  | .hbm, ⟨21, _⟩ => ⟨S16x2x128x128, .f32⟩
  | .hbm, ⟨22, _⟩ => ⟨S16x2x128x128, .f32⟩
  | .hbm, ⟨23, _⟩ => ⟨S16x2x1, .f32⟩
  | .hbm, ⟨24, _⟩ => ⟨S16x2, .f32⟩
  | .hbm, ⟨25, _⟩ => ⟨S16x2x1x1, .f32⟩
  | .hbm, ⟨26, _⟩ => ⟨S16x2x128x128, .f32⟩
  | .hbm, ⟨27, _⟩ => ⟨S16x2x128x128, .f32⟩
  | .hbm, ⟨28, _⟩ => ⟨S16x2x1, .f32⟩
  | .hbm, ⟨29, _⟩ => ⟨S16x2, .f32⟩
  | .hbm, ⟨30, _⟩ => ⟨S16x2x1x1, .f32⟩
  | .hbm, ⟨31, _⟩ => ⟨S16x2x128x128, .f32⟩
  | .hbm, ⟨32, _⟩ => ⟨S16x2x128x128, .f32⟩
  | .hbm, ⟨33, _⟩ => ⟨S16x2x128x128, .f32⟩
  | .hbm, ⟨34, _⟩ => ⟨S16x2x1, .f32⟩
  | .hbm, ⟨35, _⟩ => ⟨S16x2, .f32⟩
  | .hbm, ⟨36, _⟩ => ⟨S16x2x1x1, .f32⟩
  | .hbm, ⟨37, _⟩ => ⟨S16x2x128x128, .f32⟩
  | .hbm, ⟨38, _⟩ => ⟨S16x2x128x128, .f32⟩
  | .hbm, ⟨39, _⟩ => ⟨S16x2x128x128, .f32⟩
  | .hbm, ⟨40, _⟩ => ⟨S16x2x1, .f32⟩
  | .hbm, ⟨41, _⟩ => ⟨S16x2, .f32⟩
  | .hbm, ⟨42, _⟩ => ⟨S16x2x1x1, .f32⟩
  | .hbm, ⟨43, _⟩ => ⟨S16x2x128x128, .f32⟩
  | .hbm, ⟨44, _⟩ => ⟨S16x2x128x128, .f32⟩
  | .hbm, ⟨45, _⟩ => ⟨S16x2x128x128, .f32⟩
  | .hbm, ⟨46, _⟩ => ⟨S16x2x1x1, .f32⟩
  | .hbm, ⟨47, _⟩ => ⟨S16x2x128x128, .f32⟩
  | .hbm, ⟨48, _⟩ => ⟨S16x2x128x128, .f32⟩
  | .hbm, ⟨49, _⟩ => ⟨S16x2x128x128, .f32⟩
  | .hbm, ⟨50, _⟩ => ⟨S_, .f32⟩
  | .hbm, ⟨51, _⟩ => ⟨S16x128x128, .f32⟩
  | .hbm, ⟨52, _⟩ => ⟨S16x1x128x128, .f32⟩
  | .hbm, ⟨53, _⟩ => ⟨S16x1x128x128, .f32⟩
  | .hbm, ⟨54, _⟩ => ⟨S16x1x128x128, .f32⟩
  | .hbm, ⟨55, _⟩ => ⟨S_, .f32⟩
  | .hbm, ⟨56, _⟩ => ⟨S16x1x128x128, .f32⟩
  | .hbm, ⟨57, _⟩ => ⟨S16x1x128x128, .f32⟩
  | .hbm, ⟨58, _⟩ => ⟨S_, .f32⟩
  | .hbm, ⟨59, _⟩ => ⟨S16x1x128x128, .f32⟩
  | .hbm, ⟨60, _⟩ => ⟨S16x1x128x128, .f32⟩
  | .hbm, ⟨61, _⟩ => ⟨S16x256x128x128, .f32⟩
  | .hbm, ⟨62, _⟩ => ⟨S16x256x128x128, .f32⟩
  | .hbm, ⟨63, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]

class Facts₀ : Prop where
  reducesTo_S16x256x128x128_S16x128x128_d1 : S16x256x128x128.ReducesTo [1] S16x128x128
  h_S_ : 0 < S_.numel
  bcast_S_S16x128x128 : S_.BroadcastsInDim S16x128x128 (![] : Fin 0 → Fin S16x128x128.rank)
  bcast_S16x128x128_S16x1x128x128_0_2_3 : S16x128x128.BroadcastsInDim S16x1x128x128 (![0, 2, 3] : Fin 3 → Fin S16x1x128x128.rank)
  concatenates_S16x1x128x128_S16x1x128x128_S16x2x128x128_d1 : Shape.Concatenates [S16x1x128x128, S16x1x128x128] S16x2x128x128 1
  shapeCasts_S16x8_S16x2x4 : S16x8.ShapeCasts S16x2x4
  reducesTo_S16x2x4_S16x2_d2 : S16x2x4.ReducesTo [2] S16x2
  pads_S16x2x128x128_S16x2x130x130_000_000_110_110 : S16x2x128x128.Pads (![0, 0, 1, 1] : Fin 4 → Nat) ![0, 0, 1, 1] ![0, 0, 0, 0] S16x2x130x130
  slices_S16x2x130x130_S16x2x128x128_0_0_0_1 : S16x2x130x130.Slices ![0, 0, 0, 1] S16x2x128x128
  slices_S16x2x130x130_S16x2x128x128_0_0_2_1 : S16x2x130x130.Slices ![0, 0, 2, 1] S16x2x128x128
  slices_S16x2x130x130_S16x2x128x128_0_0_1_0 : S16x2x130x130.Slices ![0, 0, 1, 0] S16x2x128x128
  slices_S16x2x130x130_S16x2x128x128_0_0_1_2 : S16x2x130x130.Slices ![0, 0, 1, 2] S16x2x128x128
  slices_S16x2x4_S16x2x1_0_0_0 : S16x2x4.Slices ![0, 0, 0] S16x2x1
  shapeCasts_S16x2x1_S16x2 : S16x2x1.ShapeCasts S16x2
  bcast_S16x2_S16x2x1x1_0_1 : S16x2.BroadcastsInDim S16x2x1x1 (![0, 1] : Fin 2 → Fin S16x2x1x1.rank)
  bcast_S16x2x1x1_S16x2x128x128_0_1_2_3 : S16x2x1x1.BroadcastsInDim S16x2x128x128 (![0, 1, 2, 3] : Fin 4 → Fin S16x2x128x128.rank)
  slices_S16x2x4_S16x2x1_0_0_1 : S16x2x4.Slices ![0, 0, 1] S16x2x1
  slices_S16x2x4_S16x2x1_0_0_2 : S16x2x4.Slices ![0, 0, 2] S16x2x1
  slices_S16x2x4_S16x2x1_0_0_3 : S16x2x4.Slices ![0, 0, 3] S16x2x1
  reducesTo_S16x2x128x128_S16x128x128_d1 : S16x2x128x128.ReducesTo [1] S16x128x128
  bcast_S_S16x1x128x128 : S_.BroadcastsInDim S16x1x128x128 (![] : Fin 0 → Fin S16x1x128x128.rank)
  bcast_S16x1x128x128_S16x256x128x128_0_1_2_3 : S16x1x128x128.BroadcastsInDim S16x256x128x128 (![0, 1, 2, 3] : Fin 4 → Fin S16x256x128x128.rank)

variable [Facts₀]

class Facts : Prop extends Facts₀ where

variable [Facts]
-- ==== Proof.Spec.lean ====
/-
  The mathematics of the spatial-modulation block, over the extended reals, index by index.

  For an input `X` of shape [16, 256, 128, 128] (batch, channel, row, column):
  * `chanMean X` at (b, 0, h, w) is the sum over the 256 channels of `X (b, k, h, w)`, divided by 256;
  * `chanMax X` at (b, 0, h, w) is the maximum over the 256 channels of `X (b, k, h, w)` (from -∞);
  * `gate X Y` at (b, c, h, w) is `X (b, c, h, w) · σ(Y (b, 0, h, w)) + X (b, c, h, w)`, where `σ` is the logistic
    function `1 / (1 + e^(-y))` on the extended reals.
  Between the two, a five-point stencil turns the pair (mean, max) into the map `Y`; it is the same chain of
  operations on both sides of the certificate and is never opened.
-/
import Idealize.ShloMosaic.Lib.ValueIdx
import Idealize.ShloMosaic.PureOps.Ideal

noncomputable section

open scoped BigOperators

namespace Cert.SpatialMod

open Idealize.ShloMosaic Idealize.ShloMosaic.ValueIdx

/-- The input's shape: batch 16, 256 channels, 128 × 128 pixels. -/
abbrev SX : Shape := ⟨4, ![16, 256, 128, 128]⟩
/-- A one-channel map per batch element. -/
abbrev SY : Shape := ⟨4, ![16, 1, 128, 128]⟩

/-- The mean over the channels at pixel (h, w) of batch element b: the channels' sum divided by 256
    (the word `0x43800000` is the float 256). -/
def meanAt (X : SX.Idx → EReal) (b : Fin 16) (h w : Fin 128) : EReal :=
  Ideal.div (∑ k : Fin 256, X (ix4 b k h w)) (Ideal.ofBits .f32 0x43800000#32)

/-- The maximum over the channels at pixel (h, w) of batch element b, folded from -∞ (the word `0xFF800000`). -/
def maxAt (X : SX.Idx → EReal) (b : Fin 16) (h w : Fin 128) : EReal :=
  (Finset.univ : Finset (Fin 256)).fold max (Ideal.ofBits .f32 0xFF800000#32) (fun k => X (ix4 b k h w))

/-- The channel mean as a one-channel map. -/
def chanMean (X : SX.Idx → EReal) : SY.Idx → EReal := fun i => meanAt X (i 0) (i 2) (i 3)

/-- The channel maximum as a one-channel map. -/
def chanMax (X : SX.Idx → EReal) : SY.Idx → EReal := fun i => maxAt X (i 0) (i 2) (i 3)

/-- The gated residual at one element: `x · σ(y) + x`. -/
def gateAt (x y : EReal) : EReal := x * Ideal.logistic y + x

/-- The output: every channel of `X` gated by the one-channel map `Y` at the same batch element and pixel. -/
def gate (X : SX.Idx → EReal) (Y : SY.Idx → EReal) : SX.Idx → EReal :=
  fun i => gateAt (X i) (Y (ix4 (i 0) (0 : Fin 1) (i 2) (i 3)))

end Cert.SpatialMod

end
-- ==== Proof.Payload.lean ====
/-
  What the two kernel bodies compute on one block, read at one element.

  The reduction kernel loads a block of all 256 channels of one batch element and stores two one-channel blocks:
  the channels' sum divided by 256, and the channels' maximum. The combine kernel loads 64 channels of one batch
  element and that element's one-channel map `y`, and stores `x · σ(y) + x`. Each is read here at an element
  (0, c, h, w) of the stored block, as a function of the loaded blocks' elements.
-/
import proofs.«178052_j42984032698742_1_alg».proof.Proof.Gen.KernelIdeal.Skeleton
import proofs.«178052_j42984032698742_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val

open Idealize.ShloMosaic Idealize.ShloMosaic.ValueIdx Cert.KernelIdeal Cert.KernelIdeal.Gen Cert.SpatialMod

/-- Dropping the leading unit axis of an index (0, 0, h, w) leaves (0, h, w). -/
theorem tail_ix4 (h w : Fin 128) :
    (fun a : Fin 3 => (ix4 (0 : Fin 1) (0 : Fin 1) h w : S1x1x128x128.Idx) a.succ) = (ix3 (0 : Fin 1) h w : S1x128x128.Idx) := by
  funext a; match a with | ⟨0, _⟩ => rfl | ⟨1, _⟩ => rfl | ⟨2, _⟩ => rfl

/-- The reduced index (0, h, w) with channel `k` put back on axis 1 is (0, k, h, w). -/
theorem lift_ix3 (h w : Fin 128) (k : Fin (S1x256x128x128.size 1)) :
    reduces_S1x256x128x128_S1x128x128.lift (ix3 (0 : Fin 1) h w : S1x128x128.Idx) k
      = (ix4 (0 : Fin 1) (⟨k.val, k.isLt⟩ : Fin 256) h w : S1x256x128x128.Idx) := by
  funext a; apply Fin.ext
  match a with | ⟨0, _⟩ => rfl | ⟨1, _⟩ => rfl | ⟨2, _⟩ => rfl | ⟨3, _⟩ => rfl

/-- The mean payload at (0, 0, h, w): the sum over the block's 256 channels at (h, w), divided by 256. -/
theorem pay_mean (x0 : Vec Ideal S1x256x128x128 .f32) (h w : Fin 128) :
    k0_pay1 (F := Ideal) x0 (ix4 (0 : Fin 1) (0 : Fin 1) h w)
      = Ideal.div (∑ k : Fin 256, x0 (ix4 (0 : Fin 1) k h w)) (Ideal.ofBits .f32 0x43800000#32) := by
  unfold k0_pay1
  refine congrArg (fun z => Ideal.div z (Ideal.ofBits .f32 0x43800000#32)) ?_
  refine (shapeCast_addUnit_apply ![1, 128, 128] _ shapeCasts_S1x128x128_S1x1x128x128 (ix4 (0 : Fin 1) (0 : Fin 1) h w)).trans ?_
  rw [tail_ix4]
  refine (Ideal.multiReduction_add_single (φ := .f32) (s := S1x256x128x128) (t := S1x128x128) (a := (1 : Fin 4))
    (x0 : FVec Ideal S1x256x128x128 .f32) 0x00000000#32 reduces_S1x256x128x128_S1x128x128 (.inl rfl) rfl (ix3 (0 : Fin 1) h w)).trans ?_
  exact Finset.sum_congr rfl fun k _ => congrArg x0 (lift_ix3 h w k)

/-- The maximum payload at (0, 0, h, w): the maximum over the block's 256 channels at (h, w), from -∞. -/
theorem pay_max (x0 : Vec Ideal S1x256x128x128 .f32) (h w : Fin 128) :
    k0_pay2 (F := Ideal) x0 (ix4 (0 : Fin 1) (0 : Fin 1) h w)
      = (Finset.univ : Finset (Fin 256)).fold max (Ideal.ofBits .f32 0xFF800000#32) (fun k => x0 (ix4 (0 : Fin 1) k h w)) := by
  unfold k0_pay2
  refine (shapeCast_addUnit_apply ![1, 128, 128] _ shapeCasts_S1x128x128_S1x1x128x128 (ix4 (0 : Fin 1) (0 : Fin 1) h w)).trans ?_
  rw [tail_ix4]
  refine (Ideal.multiReduction_maximumf_single (φ := .f32) (s := S1x256x128x128) (t := S1x128x128) (a := (1 : Fin 4))
    (x0 : FVec Ideal S1x256x128x128 .f32) 0xFF800000#32 reduces_S1x256x128x128_S1x128x128 (.inl rfl) rfl (ix3 (0 : Fin 1) h w)).trans ?_
  exact congrArg (fun f => Finset.fold max (Ideal.ofBits .f32 0xFF800000#32) f (Finset.univ : Finset (Fin 256)))
    (funext fun k => congrArg x0 (lift_ix3 h w k))

/-- The combine payload at (0, c, h, w): the loaded element gated by the one-channel block at (0, 0, h, w). -/
theorem pay_gate (x0 : Vec Ideal S1x64x128x128 .f32) (x1 : Vec Ideal S1x1x128x128 .f32) (cc : Fin 64) (h w : Fin 128) :
    k1_pay1 (F := Ideal) x0 x1 (ix4 (0 : Fin 1) cc h w)
      = gateAt (x0 (ix4 (0 : Fin 1) cc h w)) (x1 (ix4 (0 : Fin 1) (0 : Fin 1) h w)) := by
  unfold k1_pay1 gateAt
  have hb : (broadcastTo S1x64x128x128
        (logistic (F := Ideal) (φ := .f32) (shapeCast S1x1x128x128 (x1 : FVec Ideal S1x1x128x128 .f32) shapeCasts_S1x1x128x128_S1x1x128x128))
        broadcasts_S1x1x128x128_S1x64x128x128) (ix4 (0 : Fin 1) cc h w) = Ideal.logistic (x1 (ix4 (0 : Fin 1) (0 : Fin 1) h w)) := by
    refine (broadcastTo_apply _ broadcasts_S1x1x128x128_S1x64x128x128 (ix4 (0 : Fin 1) cc h w) (ix4 (0 : Fin 1) (0 : Fin 1) h w) ?_).trans ?_
    · intro a
      match a with
      | ⟨0, _⟩ => show (0 : Nat) = if (1 : Nat) = 1 then 0 else _; rw [if_pos rfl]
      | ⟨1, _⟩ => show (0 : Nat) = if (1 : Nat) = 1 then 0 else _; rw [if_pos rfl]
      | ⟨2, _⟩ => show h.val = if (128 : Nat) = 1 then 0 else h.val; rw [if_neg (by decide)]
      | ⟨3, _⟩ => show w.val = if (128 : Nat) = 1 then 0 else w.val; rw [if_neg (by decide)]
    · rw [shapeCast_self]; rfl
  exact congrArg (fun z => x0 (ix4 (0 : Fin 1) cc h w) * z + x0 (ix4 (0 : Fin 1) cc h w)) hb

end Cert.KernelIdeal.Val

end
-- ==== Proof.Region0.lean ====
/-
  The reduction kernel's two output arrays, whole.

  The grid has 16 points; point `b` reads all 256 channels of batch element `b` of `X` and writes batch element `b`
  of the two one-channel outputs: the channels' mean and the channels' maximum. The blocks tile each output array,
  so after the last point the arrays hold `chanMean X` and `chanMax X`, `X` being the input array as the kernel finds it.
-/
import proofs.«178052_j42984032698742_1_alg».proof.Proof.Gen.KernelIdeal.Frame
import proofs.«178052_j42984032698742_1_alg».proof.Proof.Payload

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.SpatialMod

variable (V : (c : Dev nD) → (b : Ref sig .tc) → Buf (Elt Ideal) ((c : Thread nD τ).loc b))

theorem hz0 : (![0, 0, 0, 0] : Fin 4 → Nat) = fun _ => 0 := funext fun a => by fin_cases a <;> rfl

/-- An index of a one-channel block of one batch element is (0, 0, h, w). -/
theorem eq_ix4_unit (j : S1x1x128x128.Idx) : j = ix4 (0 : Fin 1) (0 : Fin 1) (j 2) (j 3) := by
  funext a
  match a with
  | ⟨0, _⟩ => exact Fin.ext (by have hlt : (j 0).val < 1 := (j 0).isLt; show (j 0).val = 0; omega)
  | ⟨1, _⟩ => exact Fin.ext (by have hlt : (j 1).val < 1 := (j 1).isLt; show (j 1).val = 0; omega)
  | ⟨2, _⟩ => rfl
  | ⟨3, _⟩ => rfl

/-- One element of a mean block: if the loaded block's channels at `j`'s pixel are `X`'s channels at `i`'s batch element
    and pixel, the stored element at `j` is the channel mean of `X` at `i`. -/
theorem mean_block (X : SX.Idx → EReal) (x0 : Vec Ideal S1x256x128x128 .f32) (j : S1x1x128x128.Idx) (i : SY.Idx)
    (h0 : ∀ k : Fin 256, x0 (ix4 (0 : Fin 1) k (j 2) (j 3)) = X (ix4 (i 0) k (i 2) (i 3))) :
    k0_pay1 (F := Ideal) x0 j = chanMean X i := by
  refine (congrArg (k0_pay1 (F := Ideal) x0) (eq_ix4_unit j)).trans ((pay_mean x0 (j 2) (j 3)).trans ?_)
  unfold chanMean meanAt
  exact congrArg (fun z => Ideal.div z (Ideal.ofBits .f32 0x43800000#32)) (Finset.sum_congr rfl fun k _ => h0 k)

/-- The same for the maximum. -/
theorem max_block (X : SX.Idx → EReal) (x0 : Vec Ideal S1x256x128x128 .f32) (j : S1x1x128x128.Idx) (i : SY.Idx)
    (h0 : ∀ k : Fin 256, x0 (ix4 (0 : Fin 1) k (j 2) (j 3)) = X (ix4 (i 0) k (i 2) (i 3))) :
    k0_pay2 (F := Ideal) x0 j = chanMax X i := by
  refine (congrArg (k0_pay2 (F := Ideal) x0) (eq_ix4_unit j)).trans ((pay_max x0 (j 2) (j 3)).trans ?_)
  unfold chanMax maxAt
  exact congrArg (fun f => Finset.fold max (Ideal.ofBits .f32 0xFF800000#32) f (Finset.univ : Finset (Fin 256))) (funext fun k => h0 k)

/-- The three windows' index maps over the grid: point `t`'s blocks are batch element `t`. -/
theorem idx_facts0 : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- The input block of point `t`, at channel `k` of a pixel, is `X` at batch element `t`: as seen from output window 1. -/
theorem in_block_1 (c : Dev nD) (t : Fin cfg0.N) (j : S1x1x128x128.Idx) (k : Fin 256) :
    iblk0 V c 0 t (ix4 (0 : Fin 1) k (j 2) (j 3))
      = V c main_arg0 (ix4 ((((cfg0.win 1).blk t).view.emb j) 0) k ((((cfg0.win 1).blk t).view.emb j) 2) ((((cfg0.win 1).blk t).view.emb j) 3)) := by
  obtain ⟨a0, a1, a2, a3, b0, b1, b2, b3, c0, c1, c2, c3⟩ := idx_facts0 t
  show V c main_arg0 (((cfg0.win 0).blk t).view.emb (ix4 (0 : Fin 1) k (j 2) (j 3))) = _
  refine congrArg (V c main_arg0) (funext fun a => Fin.ext ?_)
  have hj0 : (j 0).val = 0 := by have hlt : (j 0).val < 1 := (j 0).isLt; omega
  match a with
  | ⟨0, _⟩ => show win0_0.index t (0 : Fin 4) * 1 + 1 * 0 = win0_1.index t (0 : Fin 4) * 1 + 1 * (j 0).val; omega
  | ⟨1, _⟩ => show win0_0.index t (1 : Fin 4) * 256 + 1 * k.val = k.val; omega
  | ⟨2, _⟩ => show win0_0.index t (2 : Fin 4) * 128 + 1 * (j 2).val = win0_1.index t (2 : Fin 4) * 128 + 1 * (j 2).val; omega
  | ⟨3, _⟩ => show win0_0.index t (3 : Fin 4) * 128 + 1 * (j 3).val = win0_1.index t (3 : Fin 4) * 128 + 1 * (j 3).val; omega

/-- The same, as seen from output window 2. -/
theorem in_block_2 (c : Dev nD) (t : Fin cfg0.N) (j : S1x1x128x128.Idx) (k : Fin 256) :
    iblk0 V c 0 t (ix4 (0 : Fin 1) k (j 2) (j 3))
      = V c main_arg0 (ix4 ((((cfg0.win 2).blk t).view.emb j) 0) k ((((cfg0.win 2).blk t).view.emb j) 2) ((((cfg0.win 2).blk t).view.emb j) 3)) := by
  obtain ⟨a0, a1, a2, a3, b0, b1, b2, b3, c0, c1, c2, c3⟩ := idx_facts0 t
  show V c main_arg0 (((cfg0.win 0).blk t).view.emb (ix4 (0 : Fin 1) k (j 2) (j 3))) = _
  refine congrArg (V c main_arg0) (funext fun a => Fin.ext ?_)
  have hj0 : (j 0).val = 0 := by have hlt : (j 0).val < 1 := (j 0).isLt; omega
  match a with
  | ⟨0, _⟩ => show win0_0.index t (0 : Fin 4) * 1 + 1 * 0 = win0_2.index t (0 : Fin 4) * 1 + 1 * (j 0).val; omega
  | ⟨1, _⟩ => show win0_0.index t (1 : Fin 4) * 256 + 1 * k.val = k.val; omega
  | ⟨2, _⟩ => show win0_0.index t (2 : Fin 4) * 128 + 1 * (j 2).val = win0_2.index t (2 : Fin 4) * 128 + 1 * (j 2).val; omega
  | ⟨3, _⟩ => show win0_0.index t (3 : Fin 4) * 128 + 1 * (j 3).val = win0_2.index t (3 : Fin 4) * 128 + 1 * (j 3).val; omega

/-- What point `t` writes back through window 1 is block `t` of the channel mean. -/
theorem flushed0_1_eq (c : Dev nD) (t : Fin cfg0.N) :
    (dat0 V c).flushed 1 t = ((cfg0.win 1).blk t).view.read (Elt Ideal) (chanMean (V c main_arg0)) := by
  show (cfg0.win 1).cut (grid0.coords t) ((dat0 V c).after 1 t) = _
  rw [after0_1]
  unfold out0_1
  rw [View.canon_unit_zero hz0]
  simp only [View.ld_unit_zero (S := S1x256x128x128) hz0]
  funext j
  exact mean_block (V c main_arg0) (iblk0 V c 0 t) j (((cfg0.win 1).blk t).view.emb j) (fun k => in_block_1 V c t j k)

/-- What point `t` writes back through window 2 is block `t` of the channel maximum. -/
theorem flushed0_2_eq (c : Dev nD) (t : Fin cfg0.N) :
    (dat0 V c).flushed 2 t = ((cfg0.win 2).blk t).view.read (Elt Ideal) (chanMax (V c main_arg0)) := by
  show (cfg0.win 2).cut (grid0.coords t) ((dat0 V c).after 2 t) = _
  rw [after0_2]
  unfold out0_2
  rw [View.canon_unit_zero hz0]
  simp only [View.ld_unit_zero (S := S1x256x128x128) hz0]
  funext j
  exact max_block (V c main_arg0) (iblk0 V c 0 t) j (((cfg0.win 2).blk t).view.emb j) (fun k => in_block_2 V c t j k)

/-- An index of the mean array is in point `t`'s block iff each coordinate is in the block's range on its axis. -/
theorem mem_blk0_1 (t : Fin cfg0.N) (i : S16x1x128x128.Idx) :
    i ∈ ((cfg0.win 1).blk t).view.set ↔ ∀ a : Fin 4, win0_1.index t a * S1x1x128x128.size a ≤ (i a).val
      ∧ (i a).val < win0_1.index t a * S1x1x128x128.size a + S1x1x128x128.size a := by
  show i ∈ ((View.whole main_v0_0).slice (win0_1.rect t)).set ↔ _
  rw [View.set_slice_whole, Rect.mem_set_unit]
  exact Iff.rfl

/-- The same for the maximum array. -/
theorem mem_blk0_2 (t : Fin cfg0.N) (i : S16x1x128x128.Idx) :
    i ∈ ((cfg0.win 2).blk t).view.set ↔ ∀ a : Fin 4, win0_2.index t a * S1x1x128x128.size a ≤ (i a).val
      ∧ (i a).val < win0_2.index t a * S1x1x128x128.size a + S1x1x128x128.size a := by
  show i ∈ ((View.whole main_v0_1).slice (win0_2.rect t)).set ↔ _
  rw [View.set_slice_whole, Rect.mem_set_unit]
  exact Iff.rfl

/-- The blocks tile the mean array: the element (b, 0, h, w) is in the block of point `b`. -/
theorem cover0_1 (i : S16x1x128x128.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 128 := (i 2).isLt
  have h3 : (i 3).val < 128 := (i 3).isLt
  have hN : grid0.N = 16 := N_0
  have hlt : (i 0).val < grid0.N := by omega
  refine ⟨⟨(i 0).val, hlt⟩, flush0_1 _, ?_⟩
  rw [mem_blk0_1]
  obtain ⟨a0, a1, a2, a3, b0, b1, b2, b3, c0, c1, c2, c3⟩ := idx_facts0 ⟨(i 0).val, hlt⟩
  have b0' : win0_1.index ⟨(i 0).val, hlt⟩ (0 : Fin 4) = (i 0).val := b0
  intro a
  match a with
  | ⟨0, _⟩ =>
    show win0_1.index _ (0 : Fin 4) * 1 ≤ (i 0).val ∧ (i 0).val < win0_1.index _ (0 : Fin 4) * 1 + 1
    omega
  | ⟨1, _⟩ =>
    show win0_1.index _ (1 : Fin 4) * 1 ≤ (i 1).val ∧ (i 1).val < win0_1.index _ (1 : Fin 4) * 1 + 1
    omega
  | ⟨2, _⟩ =>
    show win0_1.index _ (2 : Fin 4) * 128 ≤ (i 2).val ∧ (i 2).val < win0_1.index _ (2 : Fin 4) * 128 + 128
    omega
  | ⟨3, _⟩ =>
    show win0_1.index _ (3 : Fin 4) * 128 ≤ (i 3).val ∧ (i 3).val < win0_1.index _ (3 : Fin 4) * 128 + 128
    omega

/-- The blocks tile the maximum array likewise. -/
theorem cover0_2 (i : S16x1x128x128.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 128 := (i 2).isLt
  have h3 : (i 3).val < 128 := (i 3).isLt
  have hN : grid0.N = 16 := N_0
  have hlt : (i 0).val < grid0.N := by omega
  refine ⟨⟨(i 0).val, hlt⟩, flush0_2 _, ?_⟩
  rw [mem_blk0_2]
  obtain ⟨a0, a1, a2, a3, b0, b1, b2, b3, c0, c1, c2, c3⟩ := idx_facts0 ⟨(i 0).val, hlt⟩
  have c0' : win0_2.index ⟨(i 0).val, hlt⟩ (0 : Fin 4) = (i 0).val := c0
  intro a
  match a with
  | ⟨0, _⟩ =>
    show win0_2.index _ (0 : Fin 4) * 1 ≤ (i 0).val ∧ (i 0).val < win0_2.index _ (0 : Fin 4) * 1 + 1
    omega
  | ⟨1, _⟩ =>
    show win0_2.index _ (1 : Fin 4) * 1 ≤ (i 1).val ∧ (i 1).val < win0_2.index _ (1 : Fin 4) * 1 + 1
    omega
  | ⟨2, _⟩ =>
    show win0_2.index _ (2 : Fin 4) * 128 ≤ (i 2).val ∧ (i 2).val < win0_2.index _ (2 : Fin 4) * 128 + 128
    omega
  | ⟨3, _⟩ =>
    show win0_2.index _ (3 : Fin 4) * 128 ≤ (i 3).val ∧ (i 3).val < win0_2.index _ (3 : Fin 4) * 128 + 128
    omega

/-- The mean array after the reduction kernel. -/
theorem final0_1 (c : Dev nD) : (dat0 V c).arrAt 1 cfg0.N = chanMean (V c main_arg0) :=
  (dat0 V c).arrAt_eq_of_cover 1 (chanMean (V c main_arg0)) (fun t _ => flushed0_1_eq V c t) cover0_1

/-- The maximum array after the reduction kernel. -/
theorem final0_2 (c : Dev nD) : (dat0 V c).arrAt 2 cfg0.N = chanMax (V c main_arg0) :=
  (dat0 V c).arrAt_eq_of_cover 2 (chanMax (V c main_arg0)) (fun t _ => flushed0_2_eq V c t) cover0_2

end Cert.KernelIdeal.Val

end
-- ==== Proof.Region1.lean ====
/-
  The combine kernel's output array, whole.

  The grid has 16 × 4 points; point (b, q) reads channels 64·q … 64·q + 63 of batch element b of `X` and the one-channel
  map of batch element b, and writes the same block of the output. The blocks tile the output array, so after the
  last point the array holds `gate X Y` everywhere, `X` and `Y` being the two input arrays as the kernel finds them.
-/
import proofs.«178052_j42984032698742_1_alg».proof.Proof.Gen.KernelIdeal.Frame
import proofs.«178052_j42984032698742_1_alg».proof.Proof.Payload

noncomputable section

namespace Cert.KernelIdeal.Val

open Idealize.ShloMosaic Idealize.ShloMosaic.TcCoe Idealize.ShloMosaic.ValueIdx Idealize.SL.Sem
open Cert.KernelIdeal Cert.KernelIdeal.Gen Cert.SpatialMod

variable (V : (c : Dev nD) → (b : Ref sig .tc) → Buf (Elt Ideal) ((c : Thread nD τ).loc b))

theorem hz4 : (![0, 0, 0, 0] : Fin 4 → Nat) = fun _ => 0 := funext fun a => by fin_cases a <;> rfl

/-- One element of a combine block: if the loaded 64-channel block at `j` is `X` at `i`, and the loaded one-channel block
    at `j`'s pixel is `Y` at `i`'s batch element and pixel, the stored element at `j` is `gate X Y` at `i`. -/
theorem gate_block (X : SX.Idx → EReal) (Y : SY.Idx → EReal) (x0 : Vec Ideal S1x64x128x128 .f32) (x1 : Vec Ideal S1x1x128x128 .f32)
    (j : S1x64x128x128.Idx) (i : SX.Idx) (h0 : x0 j = X i)
    (h1 : x1 (ix4 (0 : Fin 1) (0 : Fin 1) (j 2) (j 3)) = Y (ix4 (i 0) (0 : Fin 1) (i 2) (i 3))) :
    k1_pay1 (F := Ideal) x0 x1 j = gate X Y i := by
  have hj : j = ix4 (0 : Fin 1) (j 1) (j 2) (j 3) := by
    funext a
    match a with
    | ⟨0, _⟩ => exact Fin.ext (by have hlt : (j 0).val < 1 := (j 0).isLt; show (j 0).val = 0; omega)
    | ⟨1, _⟩ => rfl
    | ⟨2, _⟩ => rfl
    | ⟨3, _⟩ => rfl
  refine (congrArg (k1_pay1 (F := Ideal) x0 x1) hj).trans ((pay_gate x0 x1 (j 1) (j 2) (j 3)).trans ?_)
  unfold gate
  exact congrArg₂ gateAt ((congrArg x0 hj.symm).trans h0) h1

/-- The three windows' index maps over the grid: the block of point `t` is batch element `t / 4`, channel block `t % 4`;
    the one-channel map's block is batch element `t / 4`. -/
theorem idx_facts1 : ∀ t : Fin cfg1.N,
    win1_0.index t (0 : Fin 4) = t.val / 4 ∧ win1_0.index t (1 : Fin 4) = t.val % 4
    ∧ win1_0.index t (2 : Fin 4) = 0 ∧ win1_0.index t (3 : Fin 4) = 0
    ∧ win1_1.index t (0 : Fin 4) = t.val / 4 ∧ win1_1.index t (1 : Fin 4) = 0
    ∧ win1_1.index t (2 : Fin 4) = 0 ∧ win1_1.index t (3 : Fin 4) = 0
    ∧ win1_2.index t (0 : Fin 4) = t.val / 4 ∧ win1_2.index t (1 : Fin 4) = t.val % 4
    ∧ win1_2.index t (2 : Fin 4) = 0 ∧ win1_2.index t (3 : Fin 4) = 0 :=
  (by decide +kernel : ∀ t : Fin grid1.N, _)

/-- What point `t` writes back is block `t` of `gate X Y`. -/
theorem flushed1_eq (c : Dev nD) (t : Fin cfg1.N) :
    (dat1 V c).flushed 2 t
      = ((cfg1.win 2).blk t).view.read (Elt Ideal) (gate (V c main_arg0) (V c main_v38)) := by
  show (cfg1.win 2).cut (grid1.coords t) ((dat1 V c).after 2 t) = _
  rw [after1_2]
  unfold out1_2
  rw [View.canon_unit_zero hz4]
  simp only [View.ld_unit_zero (S := S1x64x128x128) hz4, View.ld_unit_zero (S := S1x1x128x128) hz4]
  obtain ⟨a0, a1, a2, a3, b0, b1, b2, b3, c0, c1, c2, c3⟩ := idx_facts1 t
  funext j
  refine gate_block (V c main_arg0) (V c main_v38) (iblk1 V c 0 t) (iblk1 V c 1 t) j (((cfg1.win 2).blk t).view.emb j) ?_ ?_
  · show V c main_arg0 (((cfg1.win 0).blk t).view.emb j) = V c main_arg0 (((cfg1.win 2).blk t).view.emb j)
    refine congrArg (V c main_arg0) (funext fun a => Fin.ext ?_)
    match a with
    | ⟨0, _⟩ => show win1_0.index t (0 : Fin 4) * 1 + 1 * (j 0).val = win1_2.index t (0 : Fin 4) * 1 + 1 * (j 0).val; omega
    | ⟨1, _⟩ => show win1_0.index t (1 : Fin 4) * 64 + 1 * (j 1).val = win1_2.index t (1 : Fin 4) * 64 + 1 * (j 1).val; omega
    | ⟨2, _⟩ => show win1_0.index t (2 : Fin 4) * 128 + 1 * (j 2).val = win1_2.index t (2 : Fin 4) * 128 + 1 * (j 2).val; omega
    | ⟨3, _⟩ => show win1_0.index t (3 : Fin 4) * 128 + 1 * (j 3).val = win1_2.index t (3 : Fin 4) * 128 + 1 * (j 3).val; omega
  · show V c main_v38 (((cfg1.win 1).blk t).view.emb (ix4 (0 : Fin 1) (0 : Fin 1) (j 2) (j 3))) = _
    refine congrArg (V c main_v38) (funext fun a => Fin.ext ?_)
    have hj0 : (j 0).val = 0 := by have hlt : (j 0).val < 1 := (j 0).isLt; omega
    match a with
    | ⟨0, _⟩ => show win1_1.index t (0 : Fin 4) * 1 + 1 * 0 = win1_2.index t (0 : Fin 4) * 1 + 1 * (j 0).val; omega
    | ⟨1, _⟩ => show win1_1.index t (1 : Fin 4) * 1 + 1 * 0 = 0; omega
    | ⟨2, _⟩ => show win1_1.index t (2 : Fin 4) * 128 + 1 * (j 2).val = win1_2.index t (2 : Fin 4) * 128 + 1 * (j 2).val; omega
    | ⟨3, _⟩ => show win1_1.index t (3 : Fin 4) * 128 + 1 * (j 3).val = win1_2.index t (3 : Fin 4) * 128 + 1 * (j 3).val; omega

/-- An index of the output array is in point `t`'s block iff each coordinate is in the block's range on its axis. -/
theorem mem_blk1 (t : Fin cfg1.N) (i : S16x256x128x128.Idx) :
    i ∈ ((cfg1.win 2).blk t).view.set ↔ ∀ a : Fin 4, win1_2.index t a * S1x64x128x128.size a ≤ (i a).val
      ∧ (i a).val < win1_2.index t a * S1x64x128x128.size a + S1x64x128x128.size a := by
  show i ∈ ((View.whole main_v39).slice (win1_2.rect t)).set ↔ _
  rw [View.set_slice_whole, Rect.mem_set_unit]
  exact Iff.rfl

/-- The blocks tile the output: the element (b, k, h, w) is in the block of point `4·b + k / 64`. -/
theorem cover1 (i : S16x256x128x128.Idx) :
    ∃ t : Fin cfg1.N, (cfg1.win 2).flush t = true ∧ i ∈ ((cfg1.win 2).blk t).view.set := by
  have h0 : (i 0).val < 16 := (i 0).isLt
  have h1 : (i 1).val < 256 := (i 1).isLt
  have h2 : (i 2).val < 128 := (i 2).isLt
  have h3 : (i 3).val < 128 := (i 3).isLt
  have hN : grid1.N = 64 := N_1
  have hlt : (i 0).val * 4 + (i 1).val / 64 < grid1.N := by omega
  refine ⟨⟨(i 0).val * 4 + (i 1).val / 64, hlt⟩, flush1_2 _, ?_⟩
  rw [mem_blk1]
  obtain ⟨a0, a1, a2, a3, b0, b1, b2, b3, c0, c1, c2, c3⟩ := idx_facts1 ⟨(i 0).val * 4 + (i 1).val / 64, hlt⟩
  have c0' : win1_2.index ⟨(i 0).val * 4 + (i 1).val / 64, hlt⟩ (0 : Fin 4) = ((i 0).val * 4 + (i 1).val / 64) / 4 := c0
  have c1' : win1_2.index ⟨(i 0).val * 4 + (i 1).val / 64, hlt⟩ (1 : Fin 4) = ((i 0).val * 4 + (i 1).val / 64) % 4 := c1
  intro a
  match a with
  | ⟨0, _⟩ =>
    show win1_2.index _ (0 : Fin 4) * 1 ≤ (i 0).val ∧ (i 0).val < win1_2.index _ (0 : Fin 4) * 1 + 1
    omega
  | ⟨1, _⟩ =>
    show win1_2.index _ (1 : Fin 4) * 64 ≤ (i 1).val ∧ (i 1).val < win1_2.index _ (1 : Fin 4) * 64 + 64
    omega
  | ⟨2, _⟩ =>
    show win1_2.index _ (2 : Fin 4) * 128 ≤ (i 2).val ∧ (i 2).val < win1_2.index _ (2 : Fin 4) * 128 + 128
    omega
  | ⟨3, _⟩ =>
    show win1_2.index _ (3 : Fin 4) * 128 ≤ (i 3).val ∧ (i 3).val < win1_2.index _ (3 : Fin 4) * 128 + 128
    omega

/-- The output array after the combine kernel: `gate` of the two input arrays as the kernel finds them. -/
theorem final1 (c : Dev nD) :
    (dat1 V c).arrAt 2 cfg1.N = gate (V c main_arg0) (V c main_v38) :=
  (dat1 V c).arrAt_eq_of_cover 2 (gate (V c main_arg0) (V c main_v38)) (fun t _ => flushed1_eq V c t) cover1

end Cert.KernelIdeal.Val

end
-- ==== Proof.Stencil.lean ====
/-
  The reference's computation cut into its stages, each a function of its inputs, in the program's own operations.

  * `meanR X`, `maxR X`: the mean and the maximum over the channel axis, each broadcast to a one-channel map;
  * `pairR a b`: the two maps joined along the channel axis into a two-channel map;
  * `stencil y w`: the five-point stencil. `w` is a [16, 8] array of weights read as [16, 2, 4]: four neighbour
    weights (up, down, left, right) for each of the two channels of each batch element; the centre weight is minus
    their sum. `y` is zero-padded by one pixel on every side of its two pixel axes; each channel of the result is the
    weighted sum of the four shifted copies and of `y` itself, and the two channels are added into a one-channel map;
  * `gateR X y3`: `X · (1 / (1 + e^(-y3))) + X`, the one-channel map `y3` broadcast over the channels.
  The whole reference is `gateR X (stencil (pairR (meanR X) (maxR X)) w)`. The stencil is never opened: the kernel program
  applies the same chain of operations to its own mean and maximum.
-/
import proofs.«178052_j42984032698742_1_alg».proof.Proof.Gen.ReferenceIdeal

noncomputable section

namespace Cert.ReferenceIdeal.Stages

open Idealize.ShloMosaic Cert.ReferenceIdeal Cert.ReferenceIdeal.Gen

variable {F : FTy → Type} [FloatOps F]

/-- The mean over the channels as a one-channel map: the channels' sum from zero, divided by the splat of 256. -/
def meanR (x : FVec F S16x256x128x128 .f32) : FVec F S16x1x128x128 .f32 :=
  broadcastInDim S16x1x128x128 ![0, 2, 3] bcast_S16x128x128_S16x1x128x128_0_2_3 (Host.divf (Host.reduceAdd x (constant S_ .f32 0x00000000#32) reducesTo_S16x256x128x128_S16x128x128_d1 h_S_) (broadcastInDim S16x128x128 ![] bcast_S_S16x128x128 (constant S_ .f32 0x43800000#32)))

/-- The maximum over the channels as a one-channel map, from -∞. -/
def maxR (x : FVec F S16x256x128x128 .f32) : FVec F S16x1x128x128 .f32 :=
  broadcastInDim S16x1x128x128 ![0, 2, 3] bcast_S16x128x128_S16x1x128x128_0_2_3 (Host.reduce FloatOps.maximumf x (constant S_ .f32 0xFF800000#32) reducesTo_S16x256x128x128_S16x128x128_d1 h_S_)

/-- Two one-channel maps joined along the channel axis. -/
def pairR (a b : FVec F S16x1x128x128 .f32) : FVec F S16x2x128x128 .f32 :=
  concatenate S16x2x128x128 1 [⟨S16x1x128x128, a⟩, ⟨S16x1x128x128, b⟩] concatenates_S16x1x128x128_S16x1x128x128_S16x2x128x128_d1

/-- The five-point stencil on the two-channel map `y` with the weights `w`, summed over the two channels. -/
def stencil (y : FVec F S16x2x128x128 .f32) (w : FVec F S16x8 .f32) : FVec F S16x1x128x128 .f32 :=
  broadcastInDim S16x1x128x128 ![0, 2, 3] bcast_S16x128x128_S16x1x128x128_0_2_3 (Host.reduceAdd (addf (addf (addf (addf (mulf (broadcastInDim S16x2x128x128 ![0, 1, 2, 3] bcast_S16x2x1x1_S16x2x128x128_0_1_2_3 (broadcastInDim S16x2x1x1 ![0, 1] bcast_S16x2_S16x2x1x1_0_1 (shapeCast _ (extractStridedSlice S16x2x1 ![0, 0, 0] (shapeCast _ w shapeCasts_S16x8_S16x2x4) slices_S16x2x4_S16x2x1_0_0_0) shapeCasts_S16x2x1_S16x2))) (extractStridedSlice S16x2x128x128 ![0, 0, 0, 1] (pad S16x2x130x130 ![0, 0, 1, 1] ![0, 0, 1, 1] ![0, 0, 0, 0] y (sitofp .f32 (constantI S_ 32 0#32)) pads_S16x2x128x128_S16x2x130x130_000_000_110_110 h_S_) slices_S16x2x130x130_S16x2x128x128_0_0_0_1)) (mulf (broadcastInDim S16x2x128x128 ![0, 1, 2, 3] bcast_S16x2x1x1_S16x2x128x128_0_1_2_3 (broadcastInDim S16x2x1x1 ![0, 1] bcast_S16x2_S16x2x1x1_0_1 (shapeCast _ (extractStridedSlice S16x2x1 ![0, 0, 1] (shapeCast _ w shapeCasts_S16x8_S16x2x4) slices_S16x2x4_S16x2x1_0_0_1) shapeCasts_S16x2x1_S16x2))) (extractStridedSlice S16x2x128x128 ![0, 0, 2, 1] (pad S16x2x130x130 ![0, 0, 1, 1] ![0, 0, 1, 1] ![0, 0, 0, 0] y (sitofp .f32 (constantI S_ 32 0#32)) pads_S16x2x128x128_S16x2x130x130_000_000_110_110 h_S_) slices_S16x2x130x130_S16x2x128x128_0_0_2_1))) (mulf (broadcastInDim S16x2x128x128 ![0, 1, 2, 3] bcast_S16x2x1x1_S16x2x128x128_0_1_2_3 (broadcastInDim S16x2x1x1 ![0, 1] bcast_S16x2_S16x2x1x1_0_1 (shapeCast _ (extractStridedSlice S16x2x1 ![0, 0, 2] (shapeCast _ w shapeCasts_S16x8_S16x2x4) slices_S16x2x4_S16x2x1_0_0_2) shapeCasts_S16x2x1_S16x2))) (extractStridedSlice S16x2x128x128 ![0, 0, 1, 0] (pad S16x2x130x130 ![0, 0, 1, 1] ![0, 0, 1, 1] ![0, 0, 0, 0] y (sitofp .f32 (constantI S_ 32 0#32)) pads_S16x2x128x128_S16x2x130x130_000_000_110_110 h_S_) slices_S16x2x130x130_S16x2x128x128_0_0_1_0))) (mulf (broadcastInDim S16x2x128x128 ![0, 1, 2, 3] bcast_S16x2x1x1_S16x2x128x128_0_1_2_3 (broadcastInDim S16x2x1x1 ![0, 1] bcast_S16x2_S16x2x1x1_0_1 (shapeCast _ (extractStridedSlice S16x2x1 ![0, 0, 3] (shapeCast _ w shapeCasts_S16x8_S16x2x4) slices_S16x2x4_S16x2x1_0_0_3) shapeCasts_S16x2x1_S16x2))) (extractStridedSlice S16x2x128x128 ![0, 0, 1, 2] (pad S16x2x130x130 ![0, 0, 1, 1] ![0, 0, 1, 1] ![0, 0, 0, 0] y (sitofp .f32 (constantI S_ 32 0#32)) pads_S16x2x128x128_S16x2x130x130_000_000_110_110 h_S_) slices_S16x2x130x130_S16x2x128x128_0_0_1_2))) (mulf (broadcastInDim S16x2x128x128 ![0, 1, 2, 3] bcast_S16x2x1x1_S16x2x128x128_0_1_2_3 (broadcastInDim S16x2x1x1 ![0, 1] bcast_S16x2_S16x2x1x1_0_1 (Host.negf (Host.reduceAdd (shapeCast _ w shapeCasts_S16x8_S16x2x4) (constant S_ .f32 0x00000000#32) reducesTo_S16x2x4_S16x2_d2 h_S_)))) y)) (constant S_ .f32 0x00000000#32) reducesTo_S16x2x128x128_S16x128x128_d1 h_S_)

/-- The gated residual: `x · (1 / (1 + e^(-y3))) + x`, `y3` broadcast over the channels. -/
def gateR (x : FVec F S16x256x128x128 .f32) (y3 : FVec F S16x1x128x128 .f32) : FVec F S16x256x128x128 .f32 :=
  addf (mulf x (broadcastInDim S16x256x128x128 ![0, 1, 2, 3] bcast_S16x1x128x128_S16x256x128x128_0_1_2_3 (Host.divf (broadcastInDim S16x1x128x128 ![] bcast_S_S16x1x128x128 (constant S_ .f32 0x3F800000#32)) (addf (broadcastInDim S16x1x128x128 ![] bcast_S_S16x1x128x128 (constant S_ .f32 0x3F800000#32)) (Host.exp (Host.negf y3)))))) x

/-- The reference's whole computation. -/
def refOut (x : FVec F S16x256x128x128 .f32) (w : FVec F S16x8 .f32) : FVec F S16x256x128x128 .f32 :=
  gateR x (stencil (pairR (meanR x) (maxR x)) w)

end Cert.ReferenceIdeal.Stages

end
-- ==== Proof.Middle.lean ====
/-
  The host operations between the two kernels.

  Between the reduction kernel and the combine kernel the program joins the mean and the maximum into a two-channel
  map and applies the five-point stencil with the weights read from the second argument. The result, the one-channel
  map the combine kernel reads, is the reference's own stencil of the reduction kernel's two outputs: the two
  programs spell the same chain of operations, so the equation is by unfolding alone.
-/
import proofs.«178052_j42984032698742_1_alg».proof.Proof.Gen.KernelIdeal.Frame
import proofs.«178052_j42984032698742_1_alg».proof.Proof.Stencil
import Idealize.ShloMosaic.Lib.StableHlo.Run

set_option maxRecDepth 65536

noncomputable section

namespace Cert.KernelIdeal.Val

open Idealize.ShloMosaic Idealize.ShloMosaic.TcCoe Idealize.SL.Sem Idealize.ShloMosaic.StableHlo
open Cert.KernelIdeal Cert.KernelIdeal.Gen Cert.ReferenceIdeal.Stages

variable {F : FTy → Type} [FloatOps F]

set_option maxHeartbeats 4000000 in
/-- From any buffer contents `W`, the host operations between the kernels leave, in the buffer the combine kernel reads
    its one-channel map from, the stencil of `W`'s mean and maximum buffers, joined, with the weights in `W`'s second
    argument buffer. -/
theorem middle_of (W : Valuation τ sig (Elt F)) :
    (StableHlo.after hostOps1_2 (StableHlo.after hostOps1_1 (StableHlo.after hostOps1 W)) (Proc.devRef .tc main_v38)
        : FVec F Cert.ReferenceIdeal.S16x1x128x128 .f32)
      = stencil (pairR (W (Proc.devRef .tc main_v0_0)) (W (Proc.devRef .tc main_v0_1))) (W (Proc.devRef .tc main_arg1)) := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  first | rfl | (unfold stencil pairR; rfl)

end Cert.KernelIdeal.Val

end
-- ==== Proof.KernelRun.lean ====
/-
  The kernel program's run with its result named.

  The program is two kernel launches with a stretch of host operations between them. Its run is a chain of five
  segments, each entered at the buffer contents the one before leaves: the launch memory, then the reduction kernel's
  two outputs written, then the host operations' results, then the combine kernel's output written. Every weakly fair
  execution terminates, and the final memory holds, at every buffer that outlives the kernels, the last of these
  contents. Read at the result buffer this names the program's result; read at the arguments it says they are unchanged.
-/
import proofs.«178052_j42984032698742_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    contents the last segment leaves there, and the two argument arrays end as launched. -/
theorem run_out : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v39 (by decide)),
       (h c _ (mem_uc main_arg0 (by decide))).trans (W5_main_arg0 m ρ c),
       (h c _ (mem_uc main_arg1 (by decide))).trans (W5_main_arg1 m ρ c)⟩)

end Cert.KernelIdeal.Val

end
-- ==== Proof.KernelValue.lean ====
/-
  The kernel program's result as one function of its two arguments.

  Reading the run's last contents backwards: the result buffer is the combine kernel's output, `gate` of the first
  argument and of the one-channel map the host operations computed; that map is the stencil of the reduction kernel's
  two outputs, the channel mean and the channel maximum of the first argument, with the weights of the second argument.
  No kernel and no host operation writes an argument, so each stage reads them as launched.
-/
import proofs.«178052_j42984032698742_1_alg».proof.Proof.Region0
import proofs.«178052_j42984032698742_1_alg».proof.Proof.Region1
import proofs.«178052_j42984032698742_1_alg».proof.Proof.Middle
import proofs.«178052_j42984032698742_1_alg».proof.Proof.KernelRun

noncomputable section

namespace Cert.KernelIdeal.Val

open Idealize.ShloMosaic Idealize.ShloMosaic.TcCoe Idealize.SL.Sem
open Cert.KernelIdeal Cert.KernelIdeal.Gen Cert.SpatialMod Cert.ReferenceIdeal.Stages

variable (m : (ℓ : Loc nD τ sig) → Buf (Elt Ideal) ℓ) (ρ : Dev nD → PrngReg)

/-- The program's result as a function of the argument arrays. -/
def kernelOut (X : SX.Idx → EReal) (W : FVec Ideal Cert.ReferenceIdeal.S16x8 .f32) : SX.Idx → EReal :=
  gate X (stencil (F := Ideal) (pairR (chanMean X) (chanMax X)) W)

/-- The combine kernel finds the first argument as launched. -/
theorem entry1_arg0 (c : Dev nD) : V4 m ρ c main_arg0 = m ((c : Thread nD τ).loc main_arg0) :=
  (((W5_arr m ρ c 0).trans (((dat1 (V4 m ρ) c).arrAt_in 0 rfl _).trans (A_eq1 (V4 m ρ) c 0))).symm).trans (W5_main_arg0 m ρ c)

/-- After the reduction kernel the mean buffer holds the channel mean of the first argument. -/
theorem exit0_mean (c : Dev nD) :
    W1 m ρ c (Proc.devRef .tc main_v0_0) = chanMean (m ((c : Thread nD τ).loc main_arg0)) :=
  (W1_arr m ρ c 1).trans (final0_1 (V0 m ρ) c)

/-- After the reduction kernel the maximum buffer holds the channel maximum of the first argument. -/
theorem exit0_max (c : Dev nD) :
    W1 m ρ c (Proc.devRef .tc main_v0_1) = chanMax (m ((c : Thread nD τ).loc main_arg0)) :=
  (W1_arr m ρ c 2).trans (final0_2 (V0 m ρ) c)

/-- The reduction kernel leaves the second argument as launched. -/
theorem exit0_arg1 (c : Dev nD) : W1 m ρ c (Proc.devRef .tc main_arg1) = m ((c : Thread nD τ).loc main_arg1) :=
  W1_of_ne m ρ c main_arg1 (by decide)

/-- The result buffer's last contents are `kernelOut` of the arguments as launched. -/
theorem out_eq (c : Dev nD) :
    W5 m ρ c (Proc.devRef .tc main_v39)
      = kernelOut (m ((c : Thread nD τ).loc main_arg0)) (m ((c : Thread nD τ).loc main_arg1)) := by
  refine ((W5_arr m ρ c 2).trans (final1 (V4 m ρ) c)).trans ?_
  unfold kernelOut
  refine congrArg₂ gate (entry1_arg0 m ρ c) ((middle_of (W1 m ρ c)).trans ?_)
  exact congrArg₂ (stencil (F := Ideal)) (congrArg₂ (pairR (F := Ideal)) (exit0_mean m ρ c) (exit0_max m ρ c)) (exit0_arg1 m ρ c)

/-- The kernel program's run: every weakly fair execution terminates with the result at `kernelOut` of the arguments
    and the arguments unchanged. -/
theorem run : θ_run (defs (F := Ideal)) (onTc (τ := τ) (main (F := Ideal))) ⟨m, fun _ => 0, ρ⟩ (fun r => ∀ c : Dev nD,
      r.2.mem ((c.tc : Thread nD τ).loc main_v39)
        = kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (out_eq m ρ c), (h c).2⟩) (run_out (F := Ideal) m ρ)

end Cert.KernelIdeal.Val

end
-- ==== Proof.RefOut.lean ====
/-
  The reference's run ends at the composition of its stages: the composed term of its 62 operations is, read from the
  inside out, the gating of the input by the stencil of the joined mean and maximum.
-/
import proofs.«178052_j42984032698742_1_alg».proof.Proof.RefRun
import proofs.«178052_j42984032698742_1_alg».proof.Proof.Stencil

set_option maxRecDepth 65536

noncomputable section

namespace Cert.ReferenceIdeal.Stages

open Idealize.ShloMosaic Idealize.ShloMosaic.TcCoe Idealize.SL.Sem Cert.ReferenceIdeal Cert.ReferenceIdeal.Gen

variable {F : FTy → Type} [FloatOps F]

/-- The run's result term is the stages composed. -/
theorem res_eq (m : (ℓ : Loc nD τ sig) → Buf (Elt F) ℓ) (c : Dev nD) :
    Cert.ReferenceIdeal.ValueP.res_main_v52 m c
      = refOut (m ((c.tc : Thread nD τ).loc main_arg0)) (m ((c.tc : Thread nD τ).loc main_arg1)) := by
  unfold Cert.ReferenceIdeal.ValueP.res_main_v52 refOut gateR stencil pairR meanR maxR
  rfl

end Cert.ReferenceIdeal.Stages

end
-- ==== Proof.RefValue.lean ====
/-
  The reference's stages read index by index, over the extended reals.

  * the mean stage is `chanMean`: at (b, 0, h, w) the sum over the 256 channels of `X (b, k, h, w)` (the host's sum
    starts from the zero word, which is the real 0), divided by the splat of 256;
  * the maximum stage is `chanMax`: the host's reduce with a maximum body is a fold of `max` over the channel
    coordinates, in any order, from the initial value -∞;
  * the gating stage is `gate`: the host spells the logistic function as `1 / (1 + e^(-y))` with the word of 1.0, which
    is the real 1, and that is the logistic function of the extended reals by definition.
-/
import proofs.«178052_j42984032698742_1_alg».proof.Proof.Stencil
import proofs.«178052_j42984032698742_1_alg».proof.Proof.Spec
import Idealize.ShloMosaic.Lib.Pipeline.Value
import Idealize.ShloMosaic.Lib.IdealHost
import Idealize.ShloMosaic.PureOps.Ideal.Laws

noncomputable section

open scoped BigOperators

namespace Cert.ReferenceIdeal.Stages

open Idealize.ShloMosaic Idealize.ShloMosaic.ValueIdx Cert.ReferenceIdeal Cert.ReferenceIdeal.Gen Cert.SpatialMod

/-- (b, 0, h, w) without its channel coordinate: (b, h, w). -/
abbrev dropChan (i : S16x1x128x128.Idx) : S16x128x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- A map without a channel axis, broadcast to a one-channel map, reads at (b, 0, h, w) what it holds at (b, h, w). -/
theorem addChan_apply (y : S16x128x128.Idx → EReal) (i : S16x1x128x128.Idx) :
    broadcastInDim S16x1x128x128 ![0, 2, 3] bcast_S16x128x128_S16x1x128x128_0_2_3 y i = y (dropChan i) :=
  broadcastInDim_apply _ bcast_S16x128x128_S16x1x128x128_0_2_3 y i (dropChan i) (fun a => match a with
    | ⟨0, _⟩ => by show (i 0).val = if (16 : Nat) = 1 then 0 else (i 0).val; rw [if_neg (by decide)]
    | ⟨1, _⟩ => by show (i 2).val = if (128 : Nat) = 1 then 0 else (i 2).val; rw [if_neg (by decide)]
    | ⟨2, _⟩ => by show (i 3).val = if (128 : Nat) = 1 then 0 else (i 3).val; rw [if_neg (by decide)])

/-- The reduced index (b, h, w) of `dropChan i` with channel `k` put back is (b, k, h, w). -/
theorem lift_dropChan (h : S16x256x128x128.Reduces [1] S16x128x128) (i : S16x1x128x128.Idx) (k : Fin (S16x256x128x128.size 1)) :
    h.lift (dropChan i) k = (ix4 (i 0) (⟨k.val, k.isLt⟩ : Fin 256) (i 2) (i 3) : SX.Idx) := by
  funext a; apply Fin.ext
  match a with | ⟨0, _⟩ => rfl | ⟨1, _⟩ => rfl | ⟨2, _⟩ => rfl | ⟨3, _⟩ => rfl

/-- The mean stage is the channel mean. -/
theorem meanR_eq (X : FVec Ideal S16x256x128x128 .f32) : meanR (F := Ideal) X = chanMean X := by
  funext i
  unfold meanR
  refine (addChan_apply _ i).trans ?_
  refine (hostDivf_apply _ _ (dropChan i)).trans ?_
  unfold chanMean meanAt
  have hs : Host.reduceAdd (F := Ideal) X (constant S_ .f32 0x00000000#32) reducesTo_S16x256x128x128_S16x128x128_d1 h_S_ (dropChan i)
      = ∑ k : Fin 256, X (ix4 (i 0) k (i 2) (i 3)) := by
    refine (hostReduceAdd_apply X _ reducesTo_S16x256x128x128_S16x128x128_d1 h_S_ (dropChan i)).trans ?_
    refine (Ideal.hostReduceAdd_single reducesTo_S16x256x128x128_S16x128x128_d1 (by decide) X _ (dropChan i)).trans ?_
    show Ideal.ofBits .f32 0x00000000#32 + _ = _
    rw [Ideal.ofBits_zero_f32, zero_add]
    exact Finset.sum_congr rfl fun k _ => congrArg X (lift_dropChan _ i k)
  have hd : broadcastInDim S16x128x128 ![] bcast_S_S16x128x128 (constant (F := Ideal) S_ .f32 0x43800000#32) (dropChan i)
      = Ideal.ofBits .f32 0x43800000#32 :=
    broadcastInDim_scalar_apply bcast_S_S16x128x128 _ (dropChan i)
  rw [hs, hd]

/-- The maximum stage is the channel maximum. -/
theorem maxR_eq (X : FVec Ideal S16x256x128x128 .f32) : maxR (F := Ideal) X = chanMax X := by
  funext i
  unfold maxR
  refine (addChan_apply _ i).trans ?_
  unfold chanMax maxAt
  refine (Host.reduce_eq_fold_single (FloatOps.maximumf (F := Ideal) (φ := .f32)) X (constant (F := Ideal) S_ .f32 0xFF800000#32)
    reducesTo_S16x256x128x128_S16x128x128_d1 (by decide) h_S_ (dropChan i)).trans ?_
  exact congrArg (fun f => Finset.fold max (Ideal.ofBits .f32 0xFF800000#32) f (Finset.univ : Finset (Fin 256)))
    (funext fun k => congrArg X (lift_dropChan _ i k))

/-- (b, c, h, w) with its channel coordinate set to 0. -/
abbrev zeroChan (i : S16x256x128x128.Idx) : S16x1x128x128.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩

/-- The gating stage is `gate`. -/
theorem gateR_eq (X : FVec Ideal S16x256x128x128 .f32) (Y : FVec Ideal S16x1x128x128 .f32) : gateR (F := Ideal) X Y = gate X Y := by
  funext i
  unfold gateR gate gateAt
  have hb : ∀ (Q : S16x1x128x128.Idx → EReal),
      broadcastInDim S16x256x128x128 ![0, 1, 2, 3] bcast_S16x1x128x128_S16x256x128x128_0_1_2_3 Q i = Q (zeroChan i) := fun Q =>
    broadcastInDim_apply _ bcast_S16x1x128x128_S16x256x128x128_0_1_2_3 Q i (zeroChan i) (fun a => match a with
      | ⟨0, _⟩ => by show (i 0).val = if (16 : Nat) = 1 then 0 else (i 0).val; rw [if_neg (by decide)]
      | ⟨1, _⟩ => by show 0 = if (1 : Nat) = 1 then 0 else (i 1).val; rw [if_pos rfl]
      | ⟨2, _⟩ => by show (i 2).val = if (128 : Nat) = 1 then 0 else (i 2).val; rw [if_neg (by decide)]
      | ⟨3, _⟩ => by show (i 3).val = if (128 : Nat) = 1 then 0 else (i 3).val; rw [if_neg (by decide)])
  have h1 : broadcastInDim S16x1x128x128 ![] bcast_S_S16x1x128x128 (constant (F := Ideal) S_ .f32 0x3F800000#32) (zeroChan i) = 1 :=
    (broadcastInDim_scalar_apply bcast_S_S16x1x128x128 _ (zeroChan i)).trans Ideal.ofBits_one_f32
  have hz : (zeroChan i : S16x1x128x128.Idx) = (ix4 (i 0) (0 : Fin 1) (i 2) (i 3) : SY.Idx) := by
    funext a; apply Fin.ext
    match a with | ⟨0, _⟩ => rfl | ⟨1, _⟩ => rfl | ⟨2, _⟩ => rfl | ⟨3, _⟩ => rfl
  show X i * (broadcastInDim (s := S16x1x128x128) S16x256x128x128 ![0, 1, 2, 3] bcast_S16x1x128x128_S16x256x128x128_0_1_2_3 _ i) + X i = _
  rw [hb]
  show X i * Ideal.div (broadcastInDim S16x1x128x128 ![] bcast_S_S16x1x128x128 (constant (F := Ideal) S_ .f32 0x3F800000#32) (zeroChan i))
      (broadcastInDim S16x1x128x128 ![] bcast_S_S16x1x128x128 (constant (F := Ideal) S_ .f32 0x3F800000#32) (zeroChan i) + Ideal.exp (-(Y (zeroChan i)))) + X i = _
  rw [h1, hz]
  rfl

/-- So the whole reference is: the input gated by the stencil of its channel mean and channel maximum. -/
theorem refOut_eq (X : FVec Ideal S16x256x128x128 .f32) (W : FVec Ideal S16x8 .f32) :
    refOut (F := Ideal) X W = gate X (stencil (F := Ideal) (pairR (chanMean X) (chanMax X)) W) := by
  unfold refOut
  rw [meanR_eq, maxR_eq, gateR_eq]

end Cert.ReferenceIdeal.Stages

end
-- ==== Proof.lean ====
/-
  Spatial modulation: a kernel program against its reference, over the extended reals.

  Both programs compute, for an input `X` of shape [16, 256, 128, 128] and weights `W` of shape [16, 8],

      out (b, c, h, w) = X (b, c, h, w) · σ(Y (b, 0, h, w)) + X (b, c, h, w),

  where `σ` is the logistic function and `Y` is a five-point stencil, weighted by `W`, of the two-channel map made of the
  mean and the maximum of `X` over its channel axis. The kernel program computes the mean and the maximum in one
  kernel, block by block over the batch axis, the stencil on the host, and the gating in a second kernel, block by
  block over the batch axis and groups of 64 channels; the reference computes everything on the host.

  The two agree for three reasons, none of which needs the inputs to be finite:
  * a block's sum over the channels divided by 256 is the host's sum from zero divided by 256, and a block's maximum
    over the channels from -∞ is the host's maximum from -∞ (a fold of `max` does not depend on the order);
  * the stencil is the same chain of host operations in both programs, applied to equal inputs;
  * the kernel's logistic function is, on the extended reals, the expression `1 / (1 + e^(-y))` the host spells.
  The ideal pass rewrote nothing in the kernel, so there is nothing to preserve. The three frames are the generated
  ones (the reference's is its run with the result dropped).
-/
import proofs.«178052_j42984032698742_1_alg».proof.Defs
import proofs.«178052_j42984032698742_1_alg».proof.Proof.Gen.Kernel
import proofs.«178052_j42984032698742_1_alg».proof.Proof.Gen.Kernel.Skeleton
import proofs.«178052_j42984032698742_1_alg».proof.Proof.Gen.Kernel.Launch
import proofs.«178052_j42984032698742_1_alg».proof.Proof.Gen.Kernel.Points
import proofs.«178052_j42984032698742_1_alg».proof.Proof.Gen.Kernel.Frame
import proofs.«178052_j42984032698742_1_alg».proof.Proof.Gen.KernelIdeal
import proofs.«178052_j42984032698742_1_alg».proof.Proof.Gen.KernelIdeal.Skeleton
import proofs.«178052_j42984032698742_1_alg».proof.Proof.Gen.KernelIdeal.Launch
import proofs.«178052_j42984032698742_1_alg».proof.Proof.Gen.KernelIdeal.Points
import proofs.«178052_j42984032698742_1_alg».proof.Proof.Gen.KernelIdeal.Frame
import proofs.«178052_j42984032698742_1_alg».proof.Proof.Gen.ReferenceIdeal
import proofs.«178052_j42984032698742_1_alg».proof.Proof.Gen.Pre_finite_inputs
import proofs.«178052_j42984032698742_1_alg».proof.Proof.KernelValue
import proofs.«178052_j42984032698742_1_alg».proof.Proof.RefOut
import proofs.«178052_j42984032698742_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories agreeing on the arguments both programs end with the same result: the kernel program's is
    `kernelOut` of its arguments, and the reference's composed stages are the same function. -/
theorem algebraic : Cert.algebraic_KernelIdeal_ReferenceIdeal := by
  intro m ρ m' ρ' _ hagree
  refine ⟨fun c => Cert.KernelIdeal.Val.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Stages.res_eq, (hagree c).1, (hagree c).2]
  exact Cert.ReferenceIdeal.Stages.refOut_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
